-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S256x8x512 : Shape := ⟨3, ![256, 8, 512]⟩
abbrev S256x1x512 : Shape := ⟨3, ![256, 1, 512]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S256x8x512 : S_.BroadcastsInDim S256x8x512 (![] : Fin 0 → Fin S256x8x512.rank)
  reducesTo_S256x8x512_S_d0_1_2 : S256x8x512.ReducesTo [0, 1, 2] S_
  bcast_S_S256x1x512 : S_.BroadcastsInDim S256x1x512 (![] : Fin 0 → Fin S256x1x512.rank)
  reducesTo_S256x1x512_S_d0_1_2 : S256x1x512.ReducesTo [0, 1, 2] S_

variable [Facts]

def fn_part1 {F : FTy → Type} [FloatOps F] (main_v13 : IVec S_ 1) (main_v16 : IVec S256x1x512 1) : IVec S_ 1 :=
  let main_c_5 : IVec S_ 1 := constantI S_ 1 1#1
  let main_v17 : IVec S_ 1 := (fun x v => Host.reduce IntOp.andi x v reducesTo_S256x1x512_S_d0_1_2 h_S_) main_v16 main_c_5
  let main_v18 : IVec S_ 1 := andi main_v13 main_v17
  main_v18

def fn {F : FTy → Type} [FloatOps F] (main_arg0 : FVec F S256x512 .f32) (main_arg1 : FVec F S256x8x512 .f32) (main_arg2 : FVec F S256x8x512 .f32) (main_arg3 : FVec F S256x1x512 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S256x8x512 .f32 := Host.absf main_arg1
  let main_cst_0 : FVec F S_ .f32 := constant S_ .f32 0x7F800000#32
  let main_v5 : FVec F S256x8x512 .f32 := broadcastInDim S256x8x512 ![] bcast_S_S256x8x512 main_cst_0
  let main_v6 : IVec S256x8x512 1 := cmpf .olt main_v4 main_v5
  let main_c_1 : IVec S_ 1 := constantI S_ 1 1#1
  let main_v7 : IVec S_ 1 := (fun x v => Host.reduce IntOp.andi x v reducesTo_S256x8x512_S_d0_1_2 h_S_) main_v6 main_c_1
  let main_v8 : IVec S_ 1 := andi main_v3 main_v7
  let main_v9 : FVec F S256x8x512 .f32 := Host.absf main_arg2
  let main_cst_2 : FVec F S_ .f32 := constant S_ .f32 0x7F800000#32
  let main_v10 : FVec F S256x8x512 .f32 := broadcastInDim S256x8x512 ![] bcast_S_S256x8x512 main_cst_2
  let main_v11 : IVec S256x8x512 1 := cmpf .olt main_v9 main_v10
  let main_c_3 : IVec S_ 1 := constantI S_ 1 1#1
  let main_v12 : IVec S_ 1 := (fun x v => Host.reduce IntOp.andi x v reducesTo_S256x8x512_S_d0_1_2 h_S_) main_v11 main_c_3
  let main_v13 : IVec S_ 1 := andi main_v8 main_v12
  let main_v14 : FVec F S256x1x512 .f32 := Host.absf main_arg3
  let main_cst_4 : FVec F S_ .f32 := constant S_ .f32 0x7F800000#32
  let main_v15 : FVec F S256x1x512 .f32 := broadcastInDim S256x1x512 ![] bcast_S_S256x1x512 main_cst_4
  let main_v16 : IVec S256x1x512 1 := cmpf .olt main_v14 main_v15
  fn_part1 (F := F) main_v13 main_v16
-- ==== Kernel.lean ====
abbrev S256x512 : Shape := ⟨2, ![256, 512]⟩
abbrev S256x8x512 : Shape := ⟨3, ![256, 8, 512]⟩
abbrev S256x1x512 : Shape := ⟨3, ![256, 1, 512]⟩
abbrev S8x256x512 : Shape := ⟨3, ![8, 256, 512]⟩
abbrev S256x256 : Shape := ⟨2, ![256, 256]⟩
abbrev S32x512 : Shape := ⟨2, ![32, 512]⟩
abbrev S8x128x512 : Shape := ⟨3, ![8, 128, 512]⟩
abbrev S128x1x512 : Shape := ⟨3, ![128, 1, 512]⟩
abbrev S32x128 : Shape := ⟨2, ![32, 128]⟩
abbrev S128x512 : Shape := ⟨2, ![128, 512]⟩
abbrev S32x1x512 : Shape := ⟨3, ![32, 1, 512]⟩
abbrev S1x128x512 : Shape := ⟨3, ![1, 128, 512]⟩
abbrev S32x128x512 : Shape := ⟨3, ![32, 128, 512]⟩

abbrev nBuf : Space → Nat
  | .hbm => 7
  | .vmem => 8
  | .smem => 0
  | _ => 0

abbrev bufTy : (tb : Table) → Fin (tcTables nBuf tb) → BufTy
  | .hbm, ⟨0, _⟩ => ⟨S256x512, .f32⟩
  | .hbm, ⟨1, _⟩ => ⟨S256x8x512, .f32⟩
  | .hbm, ⟨2, _⟩ => ⟨S256x8x512, .f32⟩
  | .hbm, ⟨3, _⟩ => ⟨S256x1x512, .f32⟩
  | .hbm, ⟨4, _⟩ => ⟨S8x256x512, .f32⟩
  | .hbm, ⟨5, _⟩ => ⟨S8x256x512, .f32⟩
  | .hbm, ⟨6, _⟩ => ⟨S256x256, .f32⟩
  | .local _ .vmem, ⟨0, _⟩ => ⟨S32x512, .f32⟩
  | .local _ .vmem, ⟨1, _⟩ => ⟨S32x512, .f32⟩
  | .local _ .vmem, ⟨2, _⟩ => ⟨S8x128x512, .f32⟩
  | .local _ .vmem, ⟨3, _⟩ => ⟨S8x128x512, .f32⟩
  | .local _ .vmem, ⟨4, _⟩ => ⟨S128x1x512, .f32⟩
  | .local _ .vmem, ⟨5, _⟩ => ⟨S32x128, .f32⟩
  | .local _ .vmem, ⟨6, _⟩ => ⟨S32x128, .f32⟩
  | .local _ .vmem, ⟨7, _⟩ => ⟨S128x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_4 : BitVec 32 := 0#32
  let c8_i32 : BitVec 32 := 8#32
  let v7 : BitVec 32 := Scalar.addi c0_i32_4 c8_i32
  let c1_i32 : BitVec 32 := 1#32
  ⟨c0_i32_4, v7, c1_i32⟩
def k0_off1 (k0_t1 : Fin k0_t1_loop.trips) : Fin 3 → Nat :=
  let c0_i32_4 : BitVec 32 := 0#32
  let c1_i32 : BitVec 32 := 1#32
  let arg8 : BitVec 32 := Scf.iv c0_i32_4 c1_i32 k0_t1
  let v10 : Index := Scalar.indexCast arg8
  let c0_8 : Index := 0#32
  let c0_9 : Index := 0#32
  ![v10.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S128x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S256x8x512_S8x256x512_1_0_2 : S256x8x512.Transposes [1, 0, 2] S8x256x512
  inb_S128x1x512_S128x1x512_0_0_0 : ∀ a, (![0, 0, 0] : Fin 3 → Nat) a + S128x1x512.size a ≤ S128x1x512.size a
  h_S128x1x512 : 0 < S128x1x512.numel
  shapeCasts_S128x1x512_S128x512 : S128x1x512.ShapeCasts S128x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S32x512_S32x512_0_0 : ∀ a, (![0, 0] : Fin 2 → Nat) a + S32x512.size a ≤ S32x512.size a
  h_S32x512 : 0 < S32x512.numel
  shapeCasts_S32x512_S32x1x512 : S32x512.ShapeCasts S32x1x512
  h_S1x128x512 : 0 < S1x128x512.numel
  shapeCasts_S1x128x512_S128x512 : S1x128x512.ShapeCasts S128x512
  shapeCasts_S128x512_S1x128x512 : S128x512.ShapeCasts S1x128x512
  broadcasts_S32x1x512_S32x128x512 : S32x1x512.Broadcasts S32x128x512
  broadcasts_S1x128x512_S32x128x512 : S1x128x512.Broadcasts S32x128x512
  reduces_S32x128x512_S32x128 : S32x128x512.Reduces [2] S32x128
  inb_S32x128_S32x128_0_0 : ∀ a, (![0, 0] : Fin 2 → Nat) a + S32x128.size a ≤ S32x128.size a
  h_S32x128 : 0 < S32x128.numel
  hrank0 : 0 < grid0.rank
  k0_t1_ok : k0_t1_loop.OK
  k0_off1_inb : ∀ k0_t1 : Fin k0_t1_loop.trips, ∀ a, (k0_off1 k0_t1) a + S1x128x512.size a ≤ S8x128x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S256x512.size a
  hwx0_0 : ∀ i : grid0.Coords, EltTy.bits .f32 = 32 ∨ (Rect.block (s := S256x512) S32x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128x512.size a ≤ S8x256x512.size a
  hwx0_1 : ∀ i : grid0.Coords, EltTy.bits .f32 = 32 ∨ (Rect.block (s := S8x256x512) S8x128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128x512.size a ≤ S8x256x512.size a
  hwx0_2 : ∀ i : grid0.Coords, EltTy.bits .f32 = 32 ∨ (Rect.block (s := S8x256x512) S8x128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1x512.size a ≤ S256x1x512.size a
  hwx0_3 : ∀ i : grid0.Coords, EltTy.bits .f32 = 32 ∨ (Rect.block (s := S256x1x512) S128x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S256x256.size a
  hwx0_4 : ∀ i : grid0.Coords, EltTy.bits .f32 = 32 ∨ (Rect.block (s := S256x256) S32x128.size (cc0_transform_4 i) (hinb0_4 i)).WholeWords (EltTy.packing .f32)

variable [Facts₀]

abbrev win0_0 : Pipeline.Window sig grid0 :=
  Pipeline.Window.ofSpec (Memref.whole main_arg0) S32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S32x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x512 : Shape := ⟨2, ![256, 512]⟩
abbrev S256x8x512 : Shape := ⟨3, ![256, 8, 512]⟩
abbrev S256x1x512 : Shape := ⟨3, ![256, 1, 512]⟩
abbrev S256x1x1x512 : Shape := ⟨4, ![256, 1, 1, 512]⟩
abbrev S1x256x8x512 : Shape := ⟨4, ![1, 256, 8, 512]⟩
abbrev S256x256x8x512 : Shape := ⟨4, ![256, 256, 8, 512]⟩
abbrev S_ : Shape := ⟨0, ![]⟩
abbrev S1x256x1x512 : Shape := ⟨4, ![1, 256, 1, 512]⟩
abbrev S256x256x8 : Shape := ⟨3, ![256, 256, 8]⟩
abbrev S256x256 : Shape := ⟨2, ![256, 256]⟩

abbrev nBuf : Space → Nat
  | .hbm => 36
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x8x512, .f32⟩
  | .hbm, ⟨2, _⟩ => ⟨S256x8x512, .f32⟩
  | .hbm, ⟨3, _⟩ => ⟨S256x1x512, .f32⟩
  | .hbm, ⟨4, _⟩ => ⟨S256x1x1x512, .f32⟩
  | .hbm, ⟨5, _⟩ => ⟨S1x256x8x512, .f32⟩
  | .hbm, ⟨6, _⟩ => ⟨S256x256x8x512, .f32⟩
  | .hbm, ⟨7, _⟩ => ⟨S256x256x8x512, .f32⟩
  | .hbm, ⟨8, _⟩ => ⟨S256x256x8x512, .f32⟩
  | .hbm, ⟨9, _⟩ => ⟨S1x256x8x512, .f32⟩
  | .hbm, ⟨10, _⟩ => ⟨S256x256x8x512, .f32⟩
  | .hbm, ⟨11, _⟩ => ⟨S256x256x8x512, .f32⟩
  | .hbm, ⟨12, _⟩ => ⟨S256x256x8x512, .f32⟩
  | .hbm, ⟨13, _⟩ => ⟨S256x256x8x512, .f32⟩
  | .hbm, ⟨14, _⟩ => ⟨S_, .f32⟩
  | .hbm, ⟨15, _⟩ => ⟨S256x256x8x512, .f32⟩
  | .hbm, ⟨16, _⟩ => ⟨S256x256x8x512, .f32⟩
  | .hbm, ⟨17, _⟩ => ⟨S_, .f32⟩
  | .hbm, ⟨18, _⟩ => ⟨S256x256x8x512, .f32⟩
  | .hbm, ⟨19, _⟩ => ⟨S256x256x8x512, .f32⟩
  | .hbm, ⟨20, _⟩ => ⟨S256x1x512, .f32⟩
  | .hbm, ⟨21, _⟩ => ⟨S1x256x1x512, .f32⟩
  | .hbm, ⟨22, _⟩ => ⟨S256x256x8x512, .f32⟩
  | .hbm, ⟨23, _⟩ => ⟨S256x256x8x512, .f32⟩
  | .hbm, ⟨24, _⟩ => ⟨S_, .f32⟩
  | .hbm, ⟨25, _⟩ => ⟨S256x256x8, .f32⟩
  | .hbm, ⟨26, _⟩ => ⟨S256x256x8, .f32⟩
  | .hbm, ⟨27, _⟩ => ⟨S256x256x8, .f32⟩
  | .hbm, ⟨28, _⟩ => ⟨S_, .f32⟩
  | .hbm, ⟨29, _⟩ => ⟨S256x256x8, .f32⟩
  | .hbm, ⟨30, _⟩ => ⟨S256x256x8, .f32⟩
  | .hbm, ⟨31, _⟩ => ⟨S_, .f32⟩
  | .hbm, ⟨32, _⟩ => ⟨S256x256x8, .f32⟩
  | .hbm, ⟨33, _⟩ => ⟨S256x256x8, .f32⟩
  | .hbm, ⟨34, _⟩ => ⟨S_, .f32⟩
  | .hbm, ⟨35, _⟩ => ⟨S256x256, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S256x512_S256x1x1x512_0_3 : S256x512.BroadcastsInDim S256x1x1x512 (![0, 3] : Fin 2 → Fin S256x1x1x512.rank)
  bcast_S256x8x512_S1x256x8x512_1_2_3 : S256x8x512.BroadcastsInDim S1x256x8x512 (![1, 2, 3] : Fin 3 → Fin S1x256x8x512.rank)
  bcast_S256x1x1x512_S256x256x8x512_0_1_2_3 : S256x1x1x512.BroadcastsInDim S256x256x8x512 (![0, 1, 2, 3] : Fin 4 → Fin S256x256x8x512.rank)
  bcast_S1x256x8x512_S256x256x8x512_0_1_2_3 : S1x256x8x512.BroadcastsInDim S256x256x8x512 (![0, 1, 2, 3] : Fin 4 → Fin S256x256x8x512.rank)
  bcast_S_S256x256x8x512 : S_.BroadcastsInDim S256x256x8x512 (![] : Fin 0 → Fin S256x256x8x512.rank)
  bcast_S256x1x512_S1x256x1x512_1_2_3 : S256x1x512.BroadcastsInDim S1x256x1x512 (![1, 2, 3] : Fin 3 → Fin S1x256x1x512.rank)
  bcast_S1x256x1x512_S256x256x8x512_0_1_2_3 : S1x256x1x512.BroadcastsInDim S256x256x8x512 (![0, 1, 2, 3] : Fin 4 → Fin S256x256x8x512.rank)
  reducesTo_S256x256x8x512_S256x256x8_d3 : S256x256x8x512.ReducesTo [3] S256x256x8
  h_S_ : 0 < S_.numel
  bcast_S_S256x256x8 : S_.BroadcastsInDim S256x256x8 (![] : Fin 0 → Fin S256x256x8.rank)
  reducesTo_S256x256x8_S256x256_d2 : S256x256x8.ReducesTo [2] S256x256

variable [Facts₀]

class Facts : Prop extends Facts₀ where

variable [Facts]
-- ==== Proof.Logistic.lean ====
/-
  The logistic function written two ways, on the extended reals.

  One program computes the logistic of `z` as `1/2 * tanh (1/2 * z) + 1/2`, the other as `1 / (1 + exp (-z))`.
  On the reals these are one function: with `a = exp (z/2)`, `tanh (z/2) = (a - 1/a) / (a + 1/a)`, so the first is
  `a / (a + 1/a) = 1 / (1 + 1/a^2)`, and `exp (-z) = 1/a^2`. At the two infinities both are the limits: at `+∞` the
  hyperbolic tangent is `1` and `exp (-z) = 0`, both sides `1`; at `-∞` the tangent is `-1` and `exp (-z) = +∞`, whose
  inverse is `0`, both sides `0`. So the identity holds for EVERY extended real, and no finiteness of `z` is needed.
-/
import Idealize.ShloMosaic.PureOps.Ideal
import Idealize.ShloMosaic.PureOps.Ideal.Laws

noncomputable section

namespace Cert.Adnm

open Idealize.ShloMosaic

/-- The pattern `0x3F000000` is one half. -/
theorem ofBits_half : Ideal.ofBits .f32 0x3F000000#32 = ((1 / 2 : ℝ) : EReal) := by
  simp [Ideal.ofBits, Ideal.ieee, -EReal.coe_mul]; norm_num

/-- The pattern `0x3F800000` is one. -/
theorem ofBits_one : Ideal.ofBits .f32 0x3F800000#32 = 1 := by
  simp [Ideal.ofBits, Ideal.ieee, -EReal.coe_mul]; norm_num

/-- On the reals: `1/2 * tanh (r/2) + 1/2 = 1 / (1 + exp (-r))`. -/
theorem real_logistic (r : ℝ) :
    1 / 2 * Real.tanh (1 / 2 * r) + 1 / 2 = 1 / (1 + Real.exp (-r)) := by
  have hapos : 0 < Real.exp (1 / 2 * r) := Real.exp_pos _
  have hinv : Real.exp (-(1 / 2 * r)) = (Real.exp (1 / 2 * r))⁻¹ := Real.exp_neg _
  have h2 : Real.exp (-r) = (Real.exp (1 / 2 * r))⁻¹ * (Real.exp (1 / 2 * r))⁻¹ := by
    rw [← hinv, ← Real.exp_add]; congr 1; ring
  rw [Real.tanh_eq_sinh_div_cosh, Real.sinh_eq, Real.cosh_eq, hinv, h2]
  generalize Real.exp (1 / 2 * r) = a at hapos
  have ha : a ≠ 0 := ne_of_gt hapos
  have h1 : a * a + 1 ≠ 0 := by positivity
  field_simp
  ring

/-- The logistic of an extended real, by the hyperbolic tangent and by the exponential: one function. -/
theorem logistic_two_ways (z : EReal) :
    ((1 / 2 : ℝ) : EReal) * Ideal.tanh (((1 / 2 : ℝ) : EReal) * z) + ((1 / 2 : ℝ) : EReal)
      = Ideal.div 1 (1 + Ideal.exp (-z)) := by
  show _ = Ideal.logistic z
  induction z using EReal.rec with
  | bot =>
    rw [EReal.coe_mul_bot_of_pos (by norm_num), Ideal.tanh_bot, Ideal.logistic_bot,
      ← EReal.coe_one, ← EReal.coe_neg, ← EReal.coe_mul, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add, real_logistic, one_div]

end Cert.Adnm

end
-- ==== Proof.Payload.lean ====
/-
  The arithmetic of the kernel's body, read one element at a time on the extended reals.

  Per grid point the body holds a block `x` of 32 rows of the first argument, the blocks `w`, `q` of 8 × 128 rows of the
  second and third (the 8 on the leading axis), and a 128 × 512 table `A`. One trip `s` of its loop adds, to the element
  `(b, o)` of a 32 × 128 accumulator, the logistic of the row sum over `k` of `logistic (x(b,k) * w(s,o,k) - q(s,o,k)) * A(o,k)`,
  each logistic computed as `1/2 * tanh (1/2 * z) + 1/2`. The table is the hyperbolic tangent of the fourth argument's block with
  its unit middle axis dropped. The layout steps between (a unit axis added or dropped, a row or a plane repeated) only
  rename indices; the lane sum is a finite sum.
-/
import proofs.«145500_j4801773437066_2_alg».proof.Proof.Gen.KernelIdeal.Skeleton
import proofs.«145500_j4801773437066_2_alg».proof.Proof.Logistic
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.Adnm.Kernel

open Cert.KernelIdeal Cert.KernelIdeal.Gen

/-! ## Layout steps at an index -/

/-- A unit middle axis added: `[a, b]` viewed `[a, 1, b]` reads `(i, j)` at `(i, u, j)`. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- A unit middle axis dropped: `[a, 1, b]` viewed `[a, b]` reads `(i, 0, j)` at `(i, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A `[32, 1, 512]` vector repeated along its middle axis reads `(b, 0, k)` at `(b, o, k)`. -/
theorem rows_repeated_apply {α : Type} (x : S32x1x512.Idx → α) (h : S32x1x512.Broadcasts S32x128x512)
    (b : Fin 32) (o : Fin 128) (k : Fin 512) :
    broadcastTo S32x128x512 x h (ix3 b o k) = x (ix3 b (0 : Fin 1) k) :=
  broadcastTo_apply x h _ _ fun a => match a with
    | ⟨0, _⟩ => by show b.val = if (32 : Nat) = 1 then 0 else b.val; rw [if_neg (by decide)]
    | ⟨1, _⟩ => by show 0 = if (1 : Nat) = 1 then 0 else o.val; rw [if_pos rfl]
    | ⟨2, _⟩ => by show k.val = if (512 : Nat) = 1 then 0 else k.val; rw [if_neg (by decide)]

/-- A `[1, 128, 512]` plane repeated along its leading axis reads `(0, o, k)` at `(b, o, k)`. -/
theorem plane_repeated_apply {α : Type} (x : S1x128x512.Idx → α) (h : S1x128x512.Broadcasts S32x128x512)
    (b : Fin 32) (o : Fin 128) (k : Fin 512) :
    broadcastTo S32x128x512 x h (ix3 b o k) = x (ix3 (0 : Fin 1) o k) :=
  broadcastTo_apply x h _ _ fun a => match a with
    | ⟨0, _⟩ => by show 0 = if (1 : Nat) = 1 then 0 else b.val; rw [if_pos rfl]
    | ⟨1, _⟩ => by show o.val = if (128 : Nat) = 1 then 0 else o.val; rw [if_neg (by decide)]
    | ⟨2, _⟩ => by show k.val = if (512 : Nat) = 1 then 0 else k.val; rw [if_neg (by decide)]

/-! ## The table: the hyperbolic tangent of a block with its unit axis dropped -/

/-- What the body stores into its table, at `(o, k)`: the hyperbolic tangent of the fourth argument's block at `(o, 0, k)`. -/
theorem table_apply (v10 : Vec Ideal S128x1x512 .f32) (o : Fin 128) (k : Fin 512) :
    k0_pay1 (F := Ideal) v10 (ix2 o k) = Ideal.tanh (v10 (ix3 o (0 : Fin 1) k)) := by
  unfold k0_pay1
  refine (congrFun (shapeCast_self _ _) _).trans ?_
  exact shapeCast_a1b_ab_apply _ _ o k

/-! ## One trip of the loop, in stages -/

/-- The argument of the inner logistic over the whole `[32, 128, 512]` box: `x * w - q` with `x` repeated over the 128 rows and `w`, `q` over the 32. -/
def affine (v3 : Vec Ideal S32x512 .f32) (v11 v14 : Vec Ideal S1x128x512 .f32) : FVec Ideal S32x128x512 .f32 :=
  subf (mulf (broadcastTo S32x128x512 (shapeCast S32x1x512 v3 shapeCasts_S32x512_S32x1x512) broadcasts_S32x1x512_S32x128x512)
      (broadcastTo S32x128x512 (shapeCast S1x128x512 (shapeCast S128x512 v11 shapeCasts_S1x128x512_S128x512) shapeCasts_S128x512_S1x128x512) broadcasts_S1x128x512_S32x128x512))
    (broadcastTo S32x128x512 (shapeCast S1x128x512 (shapeCast S128x512 v14 shapeCasts_S1x128x512_S128x512) shapeCasts_S128x512_S1x128x512) broadcasts_S1x128x512_S32x128x512)

theorem affine_apply (v3 : Vec Ideal S32x512 .f32) (v11 v14 : Vec Ideal S1x128x512 .f32) (b : Fin 32) (o : Fin 128) (k : Fin 512) :
    affine v3 v11 v14 (ix3 b o k) = v3 (ix2 b k) * v11 (ix3 (0 : Fin 1) o k) - v14 (ix3 (0 : Fin 1) o k) := by
  unfold affine
  rw [shapeCast_shapeCast, shapeCast_shapeCast]
  show broadcastTo S32x128x512 _ _ (ix3 b o k) * broadcastTo S32x128x512 v11 _ (ix3 b o k) - broadcastTo S32x128x512 v14 _ (ix3 b o k) = _
  rw [rows_repeated_apply, plane_repeated_apply, plane_repeated_apply, shapeCast_ab_a1b_apply]

/-- The logistic as the body computes it, elementwise over a vector of any shape. -/
def halfTanh {s : Shape} (z : FVec Ideal s .f32) : FVec Ideal s .f32 :=
  addf (mulf (broadcast s (Scalar.ofBits .f32 0x3F000000#32)) (tanh (mulf (broadcast s (Scalar.ofBits .f32 0x3F000000#32)) z)))
    (broadcast s (Scalar.ofBits .f32 0x3F000000#32))

theorem halfTanh_apply {s : Shape} (z : FVec Ideal s .f32) (i : s.Idx) : halfTanh z i = Ideal.logistic (z i) := by
  show Ideal.ofBits .f32 0x3F000000#32 * Ideal.tanh (Ideal.ofBits .f32 0x3F000000#32 * z i) + Ideal.ofBits .f32 0x3F000000#32 = _
  rw [Cert.Adnm.ofBits_half]
  exact Cert.Adnm.logistic_two_ways (z i)

/-- The products summed along the lanes: the inner logistic times the table, the table repeated over the 32 rows. -/
def weighted (v4 : Vec Ideal S128x512 .f32) (z : FVec Ideal S32x128x512 .f32) : FVec Ideal S32x128x512 .f32 :=
  mulf (halfTanh z) (broadcastTo S32x128x512 (shapeCast S1x128x512 v4 shapeCasts_S128x512_S1x128x512) broadcasts_S1x128x512_S32x128x512)

theorem weighted_apply (v4 : Vec Ideal S128x512 .f32) (z : FVec Ideal S32x128x512 .f32) (b : Fin 32) (o : Fin 128) (k : Fin 512) :
    weighted v4 z (ix3 b o k) = Ideal.logistic (z (ix3 b o k)) * v4 (ix2 o k) := by
  show halfTanh z (ix3 b o k) * broadcastTo S32x128x512 _ _ (ix3 b o k) = _
  rw [halfTanh_apply, plane_repeated_apply, shapeCast_ab_1ab_apply]

/-- The lane sum of a `[32, 128, 512]` box at `(b, o)`: the sum over `k` of the box at `(b, o, k)`. -/
theorem laneSum_apply (src : FVec Ideal S32x128x512 .f32) (h : S32x128x512.Reduces [2] S32x128)
    (hacc : (0x00000000#32 : BitVec 32) = 0x00000000#32) (b : Fin 32) (o : Fin 128) :
    multiReduction (F := Ideal) .add [2] S32x128 src 0x00000000#32 h (.inl rfl) hacc (ix2 b o) = ∑ k : Fin 512, src (ix3 b o k) := by
  refine (Ideal.multiReduction_add_single src 0x00000000#32 h (.inl rfl) hacc (ix2 b o)).trans ?_
  refine Finset.sum_congr rfl fun k _ => congrArg src ?_
  funext a; match a with | ⟨0, _⟩ => rfl | ⟨1, _⟩ => rfl | ⟨2, _⟩ => rfl

/-- ONE TRIP: what the loop's body yields from the accumulator `acc`, at `(b, o)`. -/
theorem trip_apply (v3 : Vec Ideal S32x512 .f32) (v4 : Vec Ideal S128x512 .f32) (acc : FVec Ideal S32x128 .f32)
    (v11 v14 : Vec Ideal S1x128x512 .f32) (b : Fin 32) (o : Fin 128) :
    k0_pay3 (F := Ideal) v3 v4 acc v11 v14 (ix2 b o)
      = acc (ix2 b o) + Ideal.logistic (∑ k : Fin 512,
          Ideal.logistic (v3 (ix2 b k) * v11 (ix3 (0 : Fin 1) o k) - v14 (ix3 (0 : Fin 1) o k)) * v4 (ix2 o k)) := by
  have e : k0_pay3 (F := Ideal) v3 v4 acc v11 v14
      = addf acc (halfTanh (multiReduction (F := Ideal) .add [2] S32x128 (weighted v4 (affine v3 v11 v14)) 0x00000000#32
          reduces_S32x128x512_S32x128 (.inl rfl) rfl)) := rfl
  rw [e]
  show acc (ix2 b o) + halfTanh _ (ix2 b o) = _
  rw [halfTanh_apply]
  refine congrArg (fun s => acc (ix2 b o) + Ideal.logistic s) ?_
  refine (laneSum_apply _ reduces_S32x128x512_S32x128 rfl b o).trans ?_
  refine Finset.sum_congr rfl fun k _ => ?_
  rw [weighted_apply, affine_apply]

end Cert.Adnm.Kernel

end
-- ==== Proof.Trips.lean ====
/-
  The body's loop over the 8 planes of the second and third blocks, read at one element.

  The loop starts from the zero accumulator and on trip `s` adds, at `(b, o)`, the logistic of the row sum for plane `s`.
  After `n` trips the accumulator at `(b, o)` is therefore the sum over `s < n` of those terms: an induction on `n`, each step
  one more summand. Plane `s` of an `[8, 128, 512]` block, loaded as a `[1, 128, 512]` vector, reads `(s, o, k)` at `(0, o, k)`.
-/
import proofs.«145500_j4801773437066_2_alg».proof.Proof.Gen.KernelIdeal.Loops
import proofs.«145500_j4801773437066_2_alg».proof.Proof.Payload
import Idealize.ShloMosaic.Lib.Pipeline.Value

set_option maxRecDepth 16384

noncomputable section

open Idealize.ShloMosaic Idealize.ShloMosaic.ValueIdx Idealize.ShloMosaic.TcCoe Idealize.SL.Sem
open scoped BigOperators

namespace Cert.Adnm.Kernel

open Cert.KernelIdeal Cert.KernelIdeal.Gen

/-- The loop makes eight trips. -/
theorem trips_eq : k0_t1_loop.trips = 8 := by decide +kernel

/-- Trip `s` loads at leading offset `s`. -/
theorem off_eq : ∀ s : Fin k0_t1_loop.trips, k0_off1 s = ![s.val, 0, 0] := by decide +kernel

/-- Trip `s` as a coordinate of the blocks' leading axis. -/
abbrev planeOf (s : Fin k0_t1_loop.trips) : Fin 8 := ⟨s.val, lt_of_lt_of_eq s.isLt trips_eq⟩

/-- Plane `s` of an `[8, 128, 512]` block, as the loop's load reads it: `(s, o, k)` at `(0, o, k)`. -/
theorem plane_apply {α : Type} (x : S8x128x512.Idx → α) (s : Fin k0_t1_loop.trips)
    (inb : ∀ a, (k0_off1 s) a + S1x128x512.size a ≤ S8x128x512.size a) (o : Fin 128) (k : Fin 512) :
    (fun y => x ((Rect.unit (s := S8x128x512) (k0_off1 s) S1x128x512.size inb).idx y)) (ix3 (0 : Fin 1) o k) = x (ix3 (planeOf s) o k) := by
  have ho := off_eq s
  refine congrArg x (funext fun a => Fin.ext ?_)
  match a with
  | ⟨0, _⟩ => show (k0_off1 s) 0 + 1 * 0 = s.val; rw [ho]; rfl
  | ⟨1, _⟩ => show (k0_off1 s) 1 + 1 * o.val = o.val; rw [ho]; show 0 + 1 * o.val = o.val; omega
  | ⟨2, _⟩ => show (k0_off1 s) 2 + 1 * k.val = k.val; rw [ho]; show 0 + 1 * k.val = k.val; omega

variable {F : FTy → Type} [FloatOps F]

/-- What one trip yields: the body's arithmetic of the accumulator and plane `s` of the two blocks. -/
theorem trip_eq (c : Dev nD) (i : grid0.Coords) (arg2 : Memref sig .tc .vmem S32x512 .f32) (harg2 : arg2.IsWhole) (arg3 : Memref sig .tc .vmem S8x128x512 .f32) (harg3 : arg3.IsWhole) (arg4 : Memref sig .tc .vmem S8x128x512 .f32) (harg4 : arg4.IsWhole) (arg5 : Memref sig .tc .vmem S128x1x512 .f32) (harg5 : arg5.IsWhole) (arg6 : Memref sig .tc .vmem S32x128 .f32) (harg6 : arg6.IsWhole) (arg7 : Memref sig .tc .vmem S128x512 .f32) (harg7 : arg7.IsWhole)
    (v3 : Vec F S32x512 .f32) (v4 : Vec F S128x512 .f32) (x1 x2 : Vec F S8x128x512 .f32)
    (s : Fin k0_t1_loop.trips) (acc : FVec F S32x128 .f32) :
    tripR_k0_t1 (F := F) Variants.none c none i arg2 harg2 arg3 harg3 arg4 harg4 arg5 harg5 arg6 harg6 arg7 harg7 v3 v4 (harg3.unread x1) (harg4.unread x2) s acc
      = k0_pay3 v3 v4 acc
          (View.ld x1 (Rect.unit (s := S8x128x512) (k0_off1 s) S1x128x512.size (k0_off1_inb s)))
          (View.ld x2 (Rect.unit (s := S8x128x512) (k0_off1 s) S1x128x512.size (k0_off1_inb s))) := by
  unfold tripR_k0_t1 trip_k0_t1
  dsimp only
  simp only [View.readAt_eq_ld, harg3.read_unread, harg4.read_unread]

/-- The term trip `s` adds at `(b, o)`. -/
def term (v3 : Vec Ideal S32x512 .f32) (v4 : Vec Ideal S128x512 .f32) (x1 x2 : Vec Ideal S8x128x512 .f32)
    (b : Fin 32) (o : Fin 128) (s : Fin 8) : EReal :=
  Ideal.logistic (∑ k : Fin 512, Ideal.logistic (v3 (ix2 b k) * x1 (ix3 s o k) - x2 (ix3 s o k)) * v4 (ix2 o k))

/-- After `n` trips the accumulator at `(b, o)` is the sum of the first `n` terms. -/
theorem loop_apply (c : Dev nD) (i : grid0.Coords) (arg2 : Memref sig .tc .vmem S32x512 .f32) (harg2 : arg2.IsWhole) (arg3 : Memref sig .tc .vmem S8x128x512 .f32) (harg3 : arg3.IsWhole) (arg4 : Memref sig .tc .vmem S8x128x512 .f32) (harg4 : arg4.IsWhole) (arg5 : Memref sig .tc .vmem S128x1x512 .f32) (harg5 : arg5.IsWhole) (arg6 : Memref sig .tc .vmem S32x128 .f32) (harg6 : arg6.IsWhole) (arg7 : Memref sig .tc .vmem S128x512 .f32) (harg7 : arg7.IsWhole)
    (v3 : Vec Ideal S32x512 .f32) (v4 : Vec Ideal S128x512 .f32) (x1 x2 : Vec Ideal S8x128x512 .f32) (b : Fin 32) (o : Fin 128) :
    ∀ (n : ℕ) (hn : n ≤ 8),
      st_k0_t1 (F := Ideal) Variants.none c none i arg2 harg2 arg3 harg3 arg4 harg4 arg5 harg5 arg6 harg6 arg7 harg7 v3 v4 (harg3.unread x1) (harg4.unread x2) k0_pay2 n (ix2 b o)
        = ∑ s : Fin n, term v3 v4 x1 x2 b o ⟨s.val, lt_of_lt_of_le s.isLt hn⟩
  | 0, _ => by
    show Ideal.ofBits .f32 0x00000000#32 = _
    rw [Ideal.ofBits_zero_f32]; rfl
  | n + 1, hn => by
    have hlt : n < k0_t1_loop.trips := by rw [trips_eq]; omega
    have e : st_k0_t1 (F := Ideal) Variants.none c none i arg2 harg2 arg3 harg3 arg4 harg4 arg5 harg5 arg6 harg6 arg7 harg7 v3 v4 (harg3.unread x1) (harg4.unread x2) k0_pay2 (n + 1)
        = tripR_k0_t1 (F := Ideal) Variants.none c none i arg2 harg2 arg3 harg3 arg4 harg4 arg5 harg5 arg6 harg6 arg7 harg7 v3 v4 (harg3.unread x1) (harg4.unread x2) ⟨n, hlt⟩
            (st_k0_t1 (F := Ideal) Variants.none c none i arg2 harg2 arg3 harg3 arg4 harg4 arg5 harg5 arg6 harg6 arg7 harg7 v3 v4 (harg3.unread x1) (harg4.unread x2) k0_pay2 n) :=
      st_k0_t1_succ (F := Ideal) Variants.none c none i arg2 harg2 arg3 harg3 arg4 harg4 arg5 harg5 arg6 harg6 arg7 harg7 v3 v4 (harg3.unread x1) (harg4.unread x2) k0_pay2 ⟨n, hlt⟩
    rw [Fin.sum_univ_castSucc]
    refine (congrFun e (ix2 b o)).trans ?_
    rw [trip_eq, trip_apply, loop_apply c i arg2 harg2 arg3 harg3 arg4 harg4 arg5 harg5 arg6 harg6 arg7 harg7 v3 v4 x1 x2 b o n (by omega)]
    refine congrArg₂ (· + ·) (Finset.sum_congr rfl fun s _ => rfl) ?_
    unfold term
    refine congrArg Ideal.logistic (Finset.sum_congr rfl fun k _ => ?_)
    rw [show View.ld x1 (Rect.unit (s := S8x128x512) (k0_off1 ⟨n, hlt⟩) S1x128x512.size (k0_off1_inb ⟨n, hlt⟩)) (ix3 (0 : Fin 1) o k) = x1 (ix3 (planeOf ⟨n, hlt⟩) o k) from plane_apply x1 ⟨n, hlt⟩ _ o k,
      show View.ld x2 (Rect.unit (s := S8x128x512) (k0_off1 ⟨n, hlt⟩) S1x128x512.size (k0_off1_inb ⟨n, hlt⟩)) (ix3 (0 : Fin 1) o k) = x2 (ix3 (planeOf ⟨n, hlt⟩) o k) from plane_apply x2 ⟨n, hlt⟩ _ o k]
    rfl

end Cert.Adnm.Kernel

end
-- ==== Proof.Spec.lean ====
/-
  The function both programs compute, element by element, on the extended reals.

  For arrays `X : [256, 512]`, `W, Q : [256, 8, 512]`, `M : [256, 1, 512]` the result's element `(B, O)` is
      ∑ s < 8,  logistic ( ∑ k < 512,  logistic (X(B,k) * W(O,s,k) - Q(O,s,k)) * tanh (M(O,0,k)) ).
  One program is handed `W` and `Q` with their first two axes exchanged (`[8, 256, 512]`); exchanging them back only renames
  the indices `(s, O, k) ↦ (O, s, k)`.
-/
import Idealize.ShloMosaic.PureOps.Ideal
import Idealize.ShloMosaic.Lib.ValueIdx
import Idealize.ShloMosaic.Lib.Pipeline.Value

noncomputable section

open Idealize.ShloMosaic Idealize.ShloMosaic.ValueIdx
open scoped BigOperators

namespace Cert.Adnm

abbrev ShX : Shape := ⟨2, ![256, 512]⟩
abbrev ShW : Shape := ⟨3, ![256, 8, 512]⟩
abbrev ShWt : Shape := ⟨3, ![8, 256, 512]⟩
abbrev ShM : Shape := ⟨3, ![256, 1, 512]⟩
abbrev ShO : Shape := ⟨2, ![256, 256]⟩

/-- The result's element `(B, O)`. -/
def entry (X : ShX.Idx → EReal) (W Q : ShW.Idx → EReal) (M : ShM.Idx → EReal) (B O : Fin 256) : EReal :=
  ∑ s : Fin 8, Ideal.logistic (∑ k : Fin 512,
    Ideal.logistic (X (ix2 B k) * W (ix3 O s k) - Q (ix3 O s k)) * Ideal.tanh (M (ix3 O (0 : Fin 1) k)))

/-- The same element from the second and third arrays given with their first two axes exchanged. -/
def entryT (X : ShX.Idx → EReal) (Wt Qt : ShWt.Idx → EReal) (M : ShM.Idx → EReal) (B O : Fin 256) : EReal :=
  ∑ s : Fin 8, Ideal.logistic (∑ k : Fin 512,
    Ideal.logistic (X (ix2 B k) * Wt (ix3 s O k) - Qt (ix3 s O k)) * Ideal.tanh (M (ix3 O (0 : Fin 1) k)))

/-- The result array. -/
def G (X : ShX.Idx → EReal) (W Q : ShW.Idx → EReal) (M : ShM.Idx → EReal) : ShO.Idx → EReal :=
  fun j => entry X W Q M (j 0) (j 1)

/-- The result array from the exchanged arrays. -/
def GT (X : ShX.Idx → EReal) (Wt Qt : ShWt.Idx → EReal) (M : ShM.Idx → EReal) : ShO.Idx → EReal :=
  fun j => entryT X Wt Qt M (j 0) (j 1)

/-- An array with its first two axes exchanged reads `(O, s, k)` at `(s, O, k)`. -/
theorem exchanged_apply (W : ShW.Idx → EReal) (h : ShW.Transposes [1, 0, 2] ShWt) (s : Fin 8) (O : Fin 256) (k : Fin 512) :
    transpose ShWt [1, 0, 2] W h (ix3 s O k) = W (ix3 O s k) :=
  transpose_apply _ W h _ _ fun b => match b with | ⟨0, _⟩ => rfl | ⟨1, _⟩ => rfl | ⟨2, _⟩ => rfl

theorem entryT_exchanged (X : ShX.Idx → EReal) (W Q : ShW.Idx → EReal) (M : ShM.Idx → EReal) (h : ShW.Transposes [1, 0, 2] ShWt)
    (B O : Fin 256) :
    entryT X (transpose ShWt [1, 0, 2] W h) (transpose ShWt [1, 0, 2] Q h) M B O = entry X W Q M B O := by
  unfold entryT entry
  refine Finset.sum_congr rfl fun s _ => congrArg Ideal.logistic (Finset.sum_congr rfl fun k _ => ?_)
  rw [exchanged_apply, exchanged_apply]

/-- So over the exchanged arrays the second form is the first. -/
theorem GT_exchanged (X : ShX.Idx → EReal) (W Q : ShW.Idx → EReal) (M : ShM.Idx → EReal) (h : ShW.Transposes [1, 0, 2] ShWt) :
    GT X (transpose ShWt [1, 0, 2] W h) (transpose ShWt [1, 0, 2] Q h) M = G X W Q M :=
  funext fun j => entryT_exchanged X W Q M h (j 0) (j 1)

end Cert.Adnm

end
-- ==== Proof.PointValue.lean ====
/-
  The output block of one grid point, element by element, as the specified function of the whole arrays.

  Let the point's blocks sit in the arrays as the windows say: row `b` of the 32-row block is row `32 p + b` of `X`; row `o` of
  plane `s` of the two 8 × 128-row blocks is `(s, 128 q + o)` of the exchanged arrays; and the table at `(o, k)` is the hyperbolic
  tangent of `M` at `(128 q + o, 0, k)`. Then the loop's result at `(b, o)` — the sum over the eight planes of the logistic of the
  row sums — is the specified function at `(32 p + b, 128 q + o)`: the same double sum with every factor renamed.
-/
import proofs.«145500_j4801773437066_2_alg».proof.Proof.Trips
import proofs.«145500_j4801773437066_2_alg».proof.Proof.Spec

set_option maxRecDepth 16384

noncomputable section

open Idealize.ShloMosaic Idealize.ShloMosaic.ValueIdx Idealize.ShloMosaic.TcCoe Idealize.SL.Sem
open scoped BigOperators

namespace Cert.Adnm.Kernel

open Cert.KernelIdeal Cert.KernelIdeal.Gen Cert.Adnm

/-- Row `b` of the `p`-th block of 32 rows. -/
abbrev rowOf (p : ℕ) (hp : p < 8) (b : Fin 32) : Fin 256 := ⟨32 * p + b.val, by have := b.isLt; omega⟩
/-- Row `o` of the `q`-th block of 128 rows. -/
abbrev colOf (q : ℕ) (hq : q < 2) (o : Fin 128) : Fin 256 := ⟨128 * q + o.val, by have := o.isLt; omega⟩

theorem point_value (c : Dev nD) (i : grid0.Coords) (arg2 : Memref sig .tc .vmem S32x512 .f32) (harg2 : arg2.IsWhole) (arg3 : Memref sig .tc .vmem S8x128x512 .f32) (harg3 : arg3.IsWhole) (arg4 : Memref sig .tc .vmem S8x128x512 .f32) (harg4 : arg4.IsWhole) (arg5 : Memref sig .tc .vmem S128x1x512 .f32) (harg5 : arg5.IsWhole) (arg6 : Memref sig .tc .vmem S32x128 .f32) (harg6 : arg6.IsWhole) (arg7 : Memref sig .tc .vmem S128x512 .f32) (harg7 : arg7.IsWhole)
    (x0 : Vec Ideal S32x512 .f32) (x1 x2 : Vec Ideal S8x128x512 .f32) (tbl : Vec Ideal S128x512 .f32)
    (Xa : ShX.Idx → EReal) (Wt Qt : ShWt.Idx → EReal) (Ma : ShM.Idx → EReal)
    (p q : ℕ) (hp : p < 8) (hq : q < 2)
    (h0 : ∀ (b : Fin 32) (k : Fin 512), x0 (ix2 b k) = Xa (ix2 (rowOf p hp b) k))
    (h1 : ∀ (s : Fin 8) (o : Fin 128) (k : Fin 512), x1 (ix3 s o k) = Wt (ix3 s (colOf q hq o) k))
    (h2 : ∀ (s : Fin 8) (o : Fin 128) (k : Fin 512), x2 (ix3 s o k) = Qt (ix3 s (colOf q hq o) k))
    (h3 : ∀ (o : Fin 128) (k : Fin 512), tbl (ix2 o k) = Ideal.tanh (Ma (ix3 (colOf q hq o) (0 : Fin 1) k)))
    (b : Fin 32) (o : Fin 128) :
    st_k0_t1 (F := Ideal) Variants.none c none i arg2 harg2 arg3 harg3 arg4 harg4 arg5 harg5 arg6 harg6 arg7 harg7 x0 tbl (harg3.unread x1) (harg4.unread x2) k0_pay2 k0_t1_loop.trips (ix2 b o)
      = GT Xa Wt Qt Ma (ix2 (rowOf p hp b) (colOf q hq o)) := by
  have e8 : st_k0_t1 (F := Ideal) Variants.none c none i arg2 harg2 arg3 harg3 arg4 harg4 arg5 harg5 arg6 harg6 arg7 harg7 x0 tbl (harg3.unread x1) (harg4.unread x2) k0_pay2 k0_t1_loop.trips
      = st_k0_t1 (F := Ideal) Variants.none c none i arg2 harg2 arg3 harg3 arg4 harg4 arg5 harg5 arg6 harg6 arg7 harg7 x0 tbl (harg3.unread x1) (harg4.unread x2) k0_pay2 8 := congrArg _ trips_eq
  refine (congrFun e8 (ix2 b o)).trans ?_
  rw [loop_apply c i arg2 harg2 arg3 harg3 arg4 harg4 arg5 harg5 arg6 harg6 arg7 harg7 x0 tbl x1 x2 b o 8 le_rfl]
  show _ = entryT Xa Wt Qt Ma (rowOf p hp b) (colOf q hq o)
  unfold entryT term
  refine Finset.sum_congr rfl fun s _ => congrArg Ideal.logistic (Finset.sum_congr rfl fun k _ => ?_)
  rw [h0, h1, h2, h3]

end Cert.Adnm.Kernel

end
-- ==== Proof.Blocks.lean ====
/-
  Where each window's block sits in its array, and what the two arrays written before the region hold.

  The grid has 16 points, `t = 8 q + p` with `p < 8` the inner coordinate and `q < 2` the outer. At point `t` the first window's
  block is rows `32 p … 32 p + 31` of the first argument; the second and third windows' blocks are rows `128 q … 128 q + 127`
  (second axis) of two `[8, 256, 512]` arrays; the fourth's is rows `128 q …` of the fourth argument; the output block is rows
  `32 p …`, columns `128 q …` of the result. A block's entry at a local coordinate is its array's entry at block index times
  block size plus that coordinate. The two `[8, 256, 512]` arrays are the second and third arguments with their first two axes
  exchanged, written by the two operations that precede the region.
-/
import proofs.«145500_j4801773437066_2_alg».proof.Proof.Gen.KernelIdeal.Value
import proofs.«145500_j4801773437066_2_alg».proof.Proof.PointValue
import Idealize.ShloMosaic.Lib.StableHlo.Run

set_option maxRecDepth 16384

noncomputable section

open Idealize.ShloMosaic Idealize.ShloMosaic.ValueIdx Idealize.ShloMosaic.TcCoe Idealize.SL.Sem Idealize.ShloMosaic.StableHlo
open Idealize.ShloMosaic.Pipeline (Dat)
open scoped BigOperators

namespace Cert.Adnm.Kernel

open Cert.KernelIdeal Cert.KernelIdeal.Gen Cert.Adnm

variable (m : (ℓ : Loc nD τ sig) → Buf (Elt Ideal) ℓ)

/-- The windows' block indices at every point, decided over the grid. -/
theorem index_facts : ∀ t : Fin cfg0.N,
    win0_0.index t (0 : Fin 2) = t.val % 8 ∧ win0_0.index t (1 : Fin 2) = 0
    ∧ win0_1.index t (0 : Fin 3) = 0 ∧ win0_1.index t (1 : Fin 3) = t.val / 8 ∧ win0_1.index t (2 : Fin 3) = 0
    ∧ win0_2.index t (0 : Fin 3) = 0 ∧ win0_2.index t (1 : Fin 3) = t.val / 8 ∧ win0_2.index t (2 : Fin 3) = 0
    ∧ win0_3.index t (0 : Fin 3) = t.val / 8 ∧ win0_3.index t (1 : Fin 3) = 0 ∧ win0_3.index t (2 : Fin 3) = 0
    ∧ win0_4.index t (0 : Fin 2) = t.val % 8 ∧ win0_4.index t (1 : Fin 2) = t.val / 8 :=
  (by decide +kernel : ∀ t : Fin grid0.N, _)

theorem point_lt (t : Fin cfg0.N) : t.val < 16 := lt_of_lt_of_eq t.isLt (show cfg0.N = 16 from N_0)
theorem inner_lt (t : Fin cfg0.N) : t.val % 8 < 8 := Nat.mod_lt _ (by norm_num)
theorem outer_lt (t : Fin cfg0.N) : t.val / 8 < 2 := by have := point_lt t; omega

/-- The first window's block at `(b, k)` is the first argument at `(32 p + b, k)`. -/
theorem xblock_apply (c : Dev nD) (t : Fin cfg0.N) (b : Fin 32) (k : Fin 512) :
    (iblk m c 0 t : Vec Ideal S32x512 .f32) (ix2 b k) = V m c main_arg0 (ix2 (rowOf (t.val % 8) (inner_lt t) b) k) := by
  obtain ⟨e0, e1, -⟩ := index_facts t
  unfold iblk
  show V m c main_arg0 (((cfg0.win 0).blk t).view.emb (ix2 b k)) = _
  refine congrArg (V m c main_arg0) (funext fun a => Fin.ext ?_)
  match a with
  | ⟨0, _⟩ => show win0_0.index t (0 : Fin 2) * 32 + 1 * b.val = 32 * (t.val % 8) + b.val; rw [e0]; omega
  | ⟨1, _⟩ => show win0_0.index t (1 : Fin 2) * 512 + 1 * k.val = k.val; rw [e1]; omega

/-- The second window's block at `(s, o, k)` is its array at `(s, 128 q + o, k)`. -/
theorem wblock_apply (c : Dev nD) (t : Fin cfg0.N) (s : Fin 8) (o : Fin 128) (k : Fin 512) :
    (iblk m c 1 t : Vec Ideal S8x128x512 .f32) (ix3 s o k) = V m c main_v0 (ix3 s (colOf (t.val / 8) (outer_lt t) o) k) := by
  obtain ⟨-, -, e0, e1, e2, -⟩ := index_facts t
  unfold iblk
  show V m c main_v0 (((cfg0.win 1).blk t).view.emb (ix3 s o k)) = _
  refine congrArg (V m c main_v0) (funext fun a => Fin.ext ?_)
  match a with
  | ⟨0, _⟩ => show win0_1.index t (0 : Fin 3) * 8 + 1 * s.val = s.val; rw [e0]; omega
  | ⟨1, _⟩ => show win0_1.index t (1 : Fin 3) * 128 + 1 * o.val = 128 * (t.val / 8) + o.val; rw [e1]; omega
  | ⟨2, _⟩ => show win0_1.index t (2 : Fin 3) * 512 + 1 * k.val = k.val; rw [e2]; omega

/-- The third window's block likewise. -/
theorem qblock_apply (c : Dev nD) (t : Fin cfg0.N) (s : Fin 8) (o : Fin 128) (k : Fin 512) :
    (iblk m c 2 t : Vec Ideal S8x128x512 .f32) (ix3 s o k) = V m c main_v1 (ix3 s (colOf (t.val / 8) (outer_lt t) o) k) := by
  obtain ⟨-, -, -, -, -, e0, e1, e2, -⟩ := index_facts t
  unfold iblk
  show V m c main_v1 (((cfg0.win 2).blk t).view.emb (ix3 s o k)) = _
  refine congrArg (V m c main_v1) (funext fun a => Fin.ext ?_)
  match a with
  | ⟨0, _⟩ => show win0_2.index t (0 : Fin 3) * 8 + 1 * s.val = s.val; rw [e0]; omega
  | ⟨1, _⟩ => show win0_2.index t (1 : Fin 3) * 128 + 1 * o.val = 128 * (t.val / 8) + o.val; rw [e1]; omega
  | ⟨2, _⟩ => show win0_2.index t (2 : Fin 3) * 512 + 1 * k.val = k.val; rw [e2]; omega

/-- The fourth window's block at `(o, 0, k)` is the fourth argument at `(128 q + o, 0, k)`. -/
theorem mblock_apply (c : Dev nD) (t : Fin cfg0.N) (o : Fin 128) (k : Fin 512) :
    (iblk m c 3 t : Vec Ideal S128x1x512 .f32) (ix3 o (0 : Fin 1) k) = V m c main_arg3 (ix3 (colOf (t.val / 8) (outer_lt t) o) (0 : Fin 1) k) := by
  obtain ⟨-, -, -, -, -, -, -, -, e0, e1, e2, -⟩ := index_facts t
  unfold iblk
  show V m c main_arg3 (((cfg0.win 3).blk t).view.emb (ix3 o (0 : Fin 1) k)) = _
  refine congrArg (V m c main_arg3) (funext fun a => Fin.ext ?_)
  match a with
  | ⟨0, _⟩ => show win0_3.index t (0 : Fin 3) * 128 + 1 * o.val = 128 * (t.val / 8) + o.val; rw [e0]; omega
  | ⟨1, _⟩ => show win0_3.index t (1 : Fin 3) * 1 + 1 * 0 = 0; rw [e1]
  | ⟨2, _⟩ => show win0_3.index t (2 : Fin 3) * 512 + 1 * k.val = k.val; rw [e2]; omega

/-- The second window's array is the second argument with its first two axes exchanged. -/
theorem exchanged_w (c : Dev nD) :
    (V m c main_v0 : S8x256x512.Idx → EReal)
      = transpose S8x256x512 [1, 0, 2] (m ((c : Thread nD τ).loc main_arg1)) transposes_S256x8x512_S8x256x512_1_0_2 := by
  dsimp only [Gen.V, Gen.hostOps0]
  after_results

/-- The third window's array is the third argument with its first two axes exchanged. -/
theorem exchanged_q (c : Dev nD) :
    (V m c main_v1 : S8x256x512.Idx → EReal)
      = transpose S8x256x512 [1, 0, 2] (m ((c : Thread nD τ).loc main_arg2)) transposes_S256x8x512_S8x256x512_1_0_2 := by
  dsimp only [Gen.V, Gen.hostOps0]
  after_results

end Cert.Adnm.Kernel

end
-- ==== Proof.Pieces.lean ====
/-
  What the body leaves behind at a grid point, case by case.

  At the first point of each run of eight (the inner grid coordinate zero) the body first stores the table — the hyperbolic
  tangent of the fourth argument's block — and reads it back; at the other points it reads the table the point before left.
  Either way it then runs the loop over the eight planes with that table and stores the loop's result as its whole output block.
  So the output block is the loop's result over the point's input blocks and the table in force, and the table after the point
  is the stored one (first points) or the one before (the others).
-/
import proofs.«145500_j4801773437066_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.Adnm.Kernel

open Cert.KernelIdeal Cert.KernelIdeal.Gen

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- A later point: the output block is the loop's result over the point's blocks and the table `xs0` the point before left. -/
theorem out_later (c : Dev nD) (i : grid0.Coords) (arg2 : Memref sig .tc .vmem S32x512 .f32) (harg2 : arg2.IsWhole) (arg3 : Memref sig .tc .vmem S8x128x512 .f32) (harg3 : arg3.IsWhole) (arg4 : Memref sig .tc .vmem S8x128x512 .f32) (harg4 : arg4.IsWhole) (arg5 : Memref sig .tc .vmem S128x1x512 .f32) (harg5 : arg5.IsWhole) (arg6 : Memref sig .tc .vmem S32x128 .f32) (harg6 : arg6.IsWhole) (arg7 : Memref sig .tc .vmem S128x512 .f32) (harg7 : arg7.IsWhole) (hc0 : ¬cond0_0 i)
    (x0 : Vec F S32x512 .f32) (x1 x2 : Vec F S8x128x512 .f32) (x3 : Vec F S128x1x512 .f32) (xs0 : Vec F S128x512 .f32) :
    out0_B_4 c i arg2 harg2 arg3 harg3 arg4 harg4 arg5 harg5 arg6 harg6 arg7 harg7 hc0 x0 x1 x2 x3 xs0 = st_k0_t1 (F := F) Variants.none c none i arg2 harg2 arg3 harg3 arg4 harg4 arg5 harg5 arg6 harg6 arg7 harg7 x0 xs0 (harg3.unread x1) (harg4.unread x2) k0_pay2 k0_t1_loop.trips := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  rw [View.canon_unit_zero zero2]
  simp only [View.readAt_eq_ld, harg2.read_unread, harg7.read_unread, View.ld_unit_zero (S := S32x512) zero2,
    View.ld_unit_zero (S := S128x512) zero2]

/-- A first point: the output block is the loop's result over the point's blocks and the table just stored. -/
theorem out_first (c : Dev nD) (i : grid0.Coords) (arg2 : Memref sig .tc .vmem S32x512 .f32) (harg2 : arg2.IsWhole) (arg3 : Memref sig .tc .vmem S8x128x512 .f32) (harg3 : arg3.IsWhole) (arg4 : Memref sig .tc .vmem S8x128x512 .f32) (harg4 : arg4.IsWhole) (arg5 : Memref sig .tc .vmem S128x1x512 .f32) (harg5 : arg5.IsWhole) (arg6 : Memref sig .tc .vmem S32x128 .f32) (harg6 : arg6.IsWhole) (arg7 : Memref sig .tc .vmem S128x512 .f32) (harg7 : arg7.IsWhole) (hc0 : cond0_0 i)
    (x0 : Vec F S32x512 .f32) (x1 x2 : Vec F S8x128x512 .f32) (x3 : Vec F S128x1x512 .f32) :
    out0_A_4 c i arg2 harg2 arg3 harg3 arg4 harg4 arg5 harg5 arg6 harg6 arg7 harg7 hc0 x0 x1 x2 x3 = st_k0_t1 (F := F) Variants.none c none i arg2 harg2 arg3 harg3 arg4 harg4 arg5 harg5 arg6 harg6 arg7 harg7 x0 (k0_pay1 x3) (harg3.unread x1) (harg4.unread x2) k0_pay2 k0_t1_loop.trips := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero zero2, View.readCov_unit_zero (S := S128x512) _ zero2]
  simp only [View.readAt_eq_ld, harg2.read_unread, harg5.read_unread, View.ld_unit_zero (S := S32x512) zero2,
    View.ld_unit_zero (S := S128x1x512) zero3]

/-- A first point leaves the stored table. -/
theorem table_first (c : Dev nD) (i : grid0.Coords) (arg2 : Memref sig .tc .vmem S32x512 .f32) (harg2 : arg2.IsWhole) (arg3 : Memref sig .tc .vmem S8x128x512 .f32) (harg3 : arg3.IsWhole) (arg4 : Memref sig .tc .vmem S8x128x512 .f32) (harg4 : arg4.IsWhole) (arg5 : Memref sig .tc .vmem S128x1x512 .f32) (harg5 : arg5.IsWhole) (arg6 : Memref sig .tc .vmem S32x128 .f32) (harg6 : arg6.IsWhole) (arg7 : Memref sig .tc .vmem S128x512 .f32) (harg7 : arg7.IsWhole) (hc0 : cond0_0 i)
    (x0 : Vec F S32x512 .f32) (x1 x2 : Vec F S8x128x512 .f32) (x3 : Vec F S128x1x512 .f32) :
    sout0_A_0 c i arg2 harg2 arg3 harg3 arg4 harg4 arg5 harg5 arg6 harg6 arg7 harg7 hc0 x0 x1 x2 x3 = k0_pay1 x3 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero zero2]
  simp only [View.readAt_eq_ld, harg5.read_unread, View.ld_unit_zero (S := S128x1x512) zero3]

end Cert.Adnm.Kernel

end
-- ==== Proof.Points.lean ====
/-
  What the table and the output block hold after every grid point.

  The table after point `t = 8 q + p` is the hyperbolic tangent of rows `128 q …` of the fourth argument: at `p = 0` the body has
  just stored exactly that, and at `p > 0` it left the table of the point before, which has the same `q` — an induction on the
  point. The output block after point `t` is the loop's result over the point's blocks and the table in force (the one just
  stored, or the one the point before left), hence the specified function at rows `32 p …`, columns `128 q …`.
-/
import proofs.«145500_j4801773437066_2_alg».proof.Proof.Blocks
import proofs.«145500_j4801773437066_2_alg».proof.Proof.Pieces

set_option maxRecDepth 16384

noncomputable section

open Idealize.ShloMosaic Idealize.ShloMosaic.ValueIdx Idealize.ShloMosaic.TcCoe Idealize.SL.Sem Idealize.ShloMosaic.StableHlo
open Idealize.ShloMosaic.Pipeline (Dat)
open scoped BigOperators

namespace Cert.Adnm.Kernel

open Cert.KernelIdeal Cert.KernelIdeal.Gen Cert.Adnm

variable (m : (ℓ : Loc nD τ sig) → Buf (Elt Ideal) ℓ)

/-- The stored table at `(o, k)`, at a first point. -/
theorem stored_table (c : Dev nD) (t : Fin cfg0.N) (o : Fin 128) (k : Fin 512) :
    k0_pay1 (F := Ideal) (iblk m c 3 t) (ix2 o k)
      = Ideal.tanh (V m c main_arg3 (ix3 (colOf (t.val / 8) (outer_lt t) o) (0 : Fin 1) k)) :=
  (table_apply (iblk m c 3 t) o k).trans (congrArg Ideal.tanh (mblock_apply m c t o k))

/-- The table after a first point of a run of eight. -/
theorem table_at_first (c : Dev nD) (t : Fin cfg0.N) (h0 : t.val % 8 = 0) (o : Fin 128) (k : Fin 512) :
    (outsAt0 m c t.val t.isLt).2 (ix2 o k)
      = Ideal.tanh (V m c main_arg3 (ix3 (colOf (t.val / 8) (outer_lt t) o) (0 : Fin 1) k)) := by
  rw [outsAt0_A m c t h0]
  dsimp only
  refine (congrFun (table_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)) (ix2 o k)).trans ?_
  exact stored_table m c t o k

/-- THE TABLE after every point. -/
theorem table_at (c : Dev nD) : ∀ (n : ℕ) (h : n < cfg0.N) (o : Fin 128) (k : Fin 512),
    (outsAt0 m c n h).2 (ix2 o k)
      = Ideal.tanh (V m c main_arg3 (ix3 (colOf (n / 8) (outer_lt ⟨n, h⟩) o) (0 : Fin 1) k))
  | 0, h, o, k => table_at_first m c ⟨0, h⟩ rfl o k
  | n + 1, h, o, k => by
    by_cases h0 : (n + 1) % 8 = 0
    · exact table_at_first m c ⟨n + 1, h⟩ h0 o k
    · rw [outsAt0_B m c ⟨n + 1, h⟩ h0]
      dsimp only
      unfold sout0_B_0
      show (outsAt0 m c n (Nat.lt_of_succ_lt h)).2 (ix2 o k) = _
      refine (table_at c n (Nat.lt_of_succ_lt h) o k).trans ?_
      refine congrArg (fun r : Fin 256 => Ideal.tanh (V m c main_arg3 (ix3 r (0 : Fin 1) k))) (Fin.ext ?_)
      show 128 * (n / 8) + o.val = 128 * ((n + 1) / 8) + o.val
      omega

/-- THE OUTPUT BLOCK after every point, element by element. -/
theorem out_at (c : Dev nD) (t : Fin cfg0.N) (b : Fin 32) (o : Fin 128) :
    (outsAt0 m c t.val t.isLt).1 (ix2 b o)
      = GT (V m c main_arg0) (V m c main_v0) (V m c main_v1) (V m c main_arg3) (ix2 (rowOf (t.val % 8) (inner_lt t) b) (colOf (t.val / 8) (outer_lt t) o)) := by
  by_cases h0 : t.val % 8 = 0
  · rw [outsAt0_A m c t h0]
    dsimp only
    refine (congrFun (out_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)) (ix2 b o)).trans ?_
    exact point_value c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (k0_pay1 (iblk m c 3 t))
      (V m c main_arg0) (V m c main_v0) (V m c main_v1) (V m c main_arg3) (t.val % 8) (t.val / 8) (inner_lt t) (outer_lt t)
      (xblock_apply m c t) (wblock_apply m c t) (qblock_apply m c t) (stored_table m c t) b o
  · have hpos : 0 < t.val := Nat.pos_of_ne_zero (fun e => h0 (by rw [e]))
    rw [outsAt0_B m c t h0]
    dsimp only
    refine (congrFun (out_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t)
      ((outsAt0 m c (t.val - 1) (Nat.lt_of_le_of_lt (Nat.sub_le _ _) t.isLt)).2)) (ix2 b o)).trans ?_
    refine point_value c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t)
      ((outsAt0 m c (t.val - 1) (Nat.lt_of_le_of_lt (Nat.sub_le _ _) t.isLt)).2)
      (V m c main_arg0) (V m c main_v0) (V m c main_v1) (V m c main_arg3) (t.val % 8) (t.val / 8) (inner_lt t) (outer_lt t)
      (xblock_apply m c t) (wblock_apply m c t) (qblock_apply m c t) (fun o k => ?_) b o
    refine (table_at m c (t.val - 1) (Nat.lt_of_le_of_lt (Nat.sub_le _ _) t.isLt) o k).trans ?_
    refine congrArg (fun r : Fin 256 => Ideal.tanh (V m c main_arg3 (ix3 r (0 : Fin 1) k))) (Fin.ext ?_)
    show 128 * ((t.val - 1) / 8) + o.val = 128 * (t.val / 8) + o.val
    omega

end Cert.Adnm.Kernel

end
-- ==== Proof.Whole.lean ====
/-
  From the 16 output blocks to the whole result array.

  Point `t = 8 q + p` writes back rows `32 p …`, columns `128 q …` of the result, and what it writes is that block of the specified
  array (the block's element `(b, o)` sits at `(32 p + b, 128 q + o)`). Every element `(B, O)` of the `256 × 256` result lies in the
  block of the point with `p = B / 32`, `q = O / 128`, so the blocks cover the array and it ends holding the specified function —
  first of the exchanged arrays the region was handed, then, exchanging back, of the four arguments themselves.
-/
import proofs.«145500_j4801773437066_2_alg».proof.Proof.Points
import Idealize.ShloMosaic.Lib.Pipeline.Value

set_option maxRecDepth 16384

noncomputable section

open Idealize.ShloMosaic Idealize.ShloMosaic.ValueIdx Idealize.ShloMosaic.TcCoe Idealize.SL.Sem Idealize.ShloMosaic.StableHlo
open Idealize.ShloMosaic.Pipeline (Dat)
open scoped BigOperators

namespace Cert.Adnm.Kernel

open Cert.KernelIdeal Cert.KernelIdeal.Gen Cert.Adnm

variable (m : (ℓ : Loc nD τ sig) → Buf (Elt Ideal) ℓ)

variable (ρ : Dev nD → PrngReg)

/-- The output block after a point at any index of the block. -/
theorem out_at_idx (c : Dev nD) (t : Fin cfg0.N) (j : S32x128.Idx) :
    (outsAt0 m c t.val t.isLt).1 j
      = GT (V m c main_arg0) (V m c main_v0) (V m c main_v1) (V m c main_arg3) (ix2 (rowOf (t.val % 8) (inner_lt t) (j 0)) (colOf (t.val / 8) (outer_lt t) (j 1))) := by
  obtain ⟨b, o, rfl⟩ : ∃ (b : Fin 32) (o : Fin 128), j = ix2 b o := ⟨j 0, j 1, eq_ix2 j⟩
  exact out_at m c t b o

/-- WHAT POINT `t` WRITES BACK is its block of the specified array. -/
theorem flushed_eq (c : Dev nD) (t : Fin cfg0.N) :
    (dats m 0 c).flushed 4 t = ((cfg0.win 4).blk t).view.read (Elt Ideal) (GT (V m c main_arg0) (V m c main_v0) (V m c main_v1) (V m c main_arg3)) := by
  rw [Cert.KernelIdeal.Value.flushed4]
  obtain ⟨-, -, -, -, -, -, -, -, -, -, -, e0, e1⟩ := index_facts t
  funext j
  show (outsAt0 m c t.val t.isLt).1 j = GT (V m c main_arg0) (V m c main_v0) (V m c main_v1) (V m c main_arg3) (((cfg0.win 4).blk t).view.emb j)
  refine (out_at_idx m c t j).trans ?_
  refine congrArg (GT (V m c main_arg0) (V m c main_v0) (V m c main_v1) (V m c main_arg3)) (funext fun a => Fin.ext ?_)
  match a with
  | ⟨0, _⟩ => show 32 * (t.val % 8) + (j 0).val = win0_4.index t (0 : Fin 2) * 32 + 1 * (j 0).val; rw [e0]; omega
  | ⟨1, _⟩ => show 128 * (t.val / 8) + (j 1).val = win0_4.index t (1 : Fin 2) * 128 + 1 * (j 1).val; rw [e1]; omega

/-- An element of the result is in point `t`'s block iff each coordinate is in the block's range on its axis. -/
theorem mem_block (t : Fin cfg0.N) (i : S256x256.Idx) :
    i ∈ ((cfg0.win 4).blk t).view.set ↔ ∀ a : Fin 2, win0_4.index t a * S32x128.size a ≤ (i a).val ∧ (i a).val < win0_4.index t a * S32x128.size a + S32x128.size a := by
  show i ∈ ((View.whole main_v2).slice (win0_4.rect t)).set ↔ _
  rw [View.set_slice_whole, Rect.mem_set_unit]
  exact Iff.rfl

/-- Every element of the result is in some point's block. -/
theorem covered (i : S256x256.Idx) : ∃ t : Fin cfg0.N, (cfg0.win 4).flush t = true ∧ i ∈ ((cfg0.win 4).blk t).view.set := by
  have hi0 : (i 0).val < 256 := (i 0).isLt
  have hi1 : (i 1).val < 256 := (i 1).isLt
  have hN : cfg0.N = 16 := N_0
  refine ⟨⟨8 * ((i 1).val / 128) + (i 0).val / 32, by rw [hN]; omega⟩, flush0_4 _, ?_⟩
  obtain ⟨-, -, -, -, -, -, -, -, -, -, -, e0, e1⟩ := index_facts ⟨8 * ((i 1).val / 128) + (i 0).val / 32, by rw [hN]; omega⟩
  rw [mem_block]
  intro a
  match a with
  | ⟨0, _⟩ =>
    show win0_4.index _ (0 : Fin 2) * 32 ≤ (i 0).val ∧ (i 0).val < win0_4.index _ (0 : Fin 2) * 32 + 32
    rw [e0]
    show (8 * ((i 1).val / 128) + (i 0).val / 32) % 8 * 32 ≤ (i 0).val ∧ (i 0).val < (8 * ((i 1).val / 128) + (i 0).val / 32) % 8 * 32 + 32
    omega
  | ⟨1, _⟩ =>
    show win0_4.index _ (1 : Fin 2) * 128 ≤ (i 1).val ∧ (i 1).val < win0_4.index _ (1 : Fin 2) * 128 + 128
    rw [e1]
    show (8 * ((i 1).val / 128) + (i 0).val / 32) / 8 * 128 ≤ (i 1).val ∧ (i 1).val < (8 * ((i 1).val / 128) + (i 0).val / 32) / 8 * 128 + 128
    omega

/-- THE RESULT ARRAY after the run: the specified function of the arrays the region was handed. -/
theorem final (c : Dev nD) : (dats m 0 c).arrAt 4 cfg0.N = GT (V m c main_arg0) (V m c main_v0) (V m c main_v1) (V m c main_arg3) :=
  (dats m 0 c).arrAt_eq_of_cover 4 (GT (V m c main_arg0) (V m c main_v0) (V m c main_v1) (V m c main_arg3)) (fun t _ => flushed_eq m c t) (fun i => covered i)

/-- … which is the specified function of the four arguments. -/
theorem result_eq (c : Dev nD) :
    (dats m 0 c).arrAt 4 cfg0.N = G (m ((c : Thread nD τ).loc main_arg0)) (m ((c : Thread nD τ).loc main_arg1)) (m ((c : Thread nD τ).loc main_arg2)) (m ((c : Thread nD τ).loc main_arg3)) := by
  rw [final, exchanged_w, exchanged_q, V_main_arg0, V_main_arg3]
  exact GT_exchanged _ _ _ _ _

/-- The run, read: the result array at the specified function of the arguments, the arguments unchanged. -/
theorem run : θ_run defs (onTc (τ := τ) (main (F := Ideal))) ⟨m, fun _ => 0, ρ⟩ fun r => ∀ c : Dev nD,
      r.2.mem ((c : Thread nD τ).loc main_v2) = G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_eq m c), (h c).2⟩) (Cert.KernelIdeal.Value.run_blocks m ρ)

end Cert.Adnm.Kernel

end
-- ==== Proof.RefIsSpec.lean ====
/-
  The reference program computes the specified function.

  Read one element at a time, the reference multiplies `X(B,k)` by `W(O,s,k)`, subtracts `Q(O,s,k)`, applies `1 / (1 + exp (-z))`,
  multiplies by `tanh (M(O,0,k))`, sums over `k` from zero, applies `1 / (1 + exp (-z))` again and sums over `s` from zero. Its
  broadcasts only rename indices: the composed index maps send `(B, O, s, k)` to `(B, k)`, `(O, s, k)`, `(O, s, k)` and `(O, 0, k)`.
  The constant one is the pattern `0x3F800000`, the two initial values are the zero pattern, and `0 + x = x`.
-/
import proofs.«145500_j4801773437066_2_alg».proof.Proof.Gen.ReferenceIdeal.Read
import proofs.«145500_j4801773437066_2_alg».proof.Proof.Spec
import proofs.«145500_j4801773437066_2_alg».proof.Proof.Logistic
import Idealize.ShloMosaic.PureOps.Ideal.Laws

noncomputable section

open Idealize.ShloMosaic Idealize.ShloMosaic.ValueIdx
open scoped BigOperators

namespace Cert.Adnm.Reference

open Cert.ReferenceIdeal Cert.ReferenceIdeal.Gen Cert.ReferenceIdeal.Read Cert.Adnm

/-! ## The composed index maps -/

theorem idxX (B O : Fin 256) (s : Fin 8) (k : Fin 512) :
    idx_main_v0 (idx_main_v2 (idx_main_v18 (idx_main_v25 (ix2 B O) s) k)) = ix2 B k :=
  funext fun a => Fin.ext (by match a with | ⟨0, _⟩ => rfl | ⟨1, _⟩ => rfl)

theorem idxW (B O : Fin 256) (s : Fin 8) (k : Fin 512) :
    idx_main_v1 (idx_main_v3 (idx_main_v18 (idx_main_v25 (ix2 B O) s) k)) = ix3 O s k :=
  funext fun a => Fin.ext (by match a with | ⟨0, _⟩ => rfl | ⟨1, _⟩ => rfl | ⟨2, _⟩ => rfl)

theorem idxQ (B O : Fin 256) (s : Fin 8) (k : Fin 512) :
    idx_main_v5 (idx_main_v6 (idx_main_v18 (idx_main_v25 (ix2 B O) s) k)) = ix3 O s k :=
  funext fun a => Fin.ext (by match a with | ⟨0, _⟩ => rfl | ⟨1, _⟩ => rfl | ⟨2, _⟩ => rfl)

theorem idxM (B O : Fin 256) (s : Fin 8) (k : Fin 512) :
    idx_main_v15 (idx_main_v16 (idx_main_v18 (idx_main_v25 (ix2 B O) s) k)) = ix3 O (0 : Fin 1) k :=
  funext fun a => Fin.ext (by match a with | ⟨0, _⟩ => rfl | ⟨1, _⟩ => rfl | ⟨2, _⟩ => rfl)

/-! ## The reference's result is the specified array -/

theorem reference_is_G (x0 : (⟨S256x512, .f32⟩ : BufTy).Contents (Elt Ideal)) (x1 x2 : (⟨S256x8x512, .f32⟩ : BufTy).Contents (Elt Ideal))
    (x3 : (⟨S256x1x512, .f32⟩ : BufTy).Contents (Elt Ideal)) :
    val_main_v25 (F := Ideal) x0 x1 x2 x3 = G x0 x1 x2 x3 := by
  funext j
  obtain ⟨B, O, rfl⟩ : ∃ (B O : Fin 256), j = ix2 B O := ⟨j 0, j 1, eq_ix2 j⟩
  show _ = entry x0 x1 x2 x3 B O
  unfold entry
  simp only [val_main_v25_apply, val_main_v24_apply, val_main_v23_apply, val_main_cst_3_apply, val_main_v22_apply,
    val_main_v21_apply, val_main_cst_2_apply, val_main_v20_apply, val_main_v19_apply, val_main_v18_apply, val_main_v17_apply,
    val_main_v13_apply, val_main_v12_apply, val_main_cst_0_apply, val_main_v11_apply, val_main_v10_apply, val_main_cst_apply,
    val_main_v9_apply, val_main_v8_apply, val_main_v7_apply, val_main_v4_apply, val_main_v2_apply, val_main_v0_apply,
    val_main_v3_apply, val_main_v1_apply, val_main_v6_apply, val_main_v5_apply, val_main_v16_apply, val_main_v15_apply,
    val_main_v14_apply, val_main_cst_4_apply, val_main_cst_1_apply,
    idxX, idxW, idxQ, idxM,
    Ideal.ofBits_def, Ideal.hostDivf_def, Ideal.addf_def, Ideal.hostUnary_exp_def, Ideal.hostNegf_def, Ideal.negf_def,
    Ideal.mulf_def, Ideal.subf_def, Ideal.hostUnary_tanh_def, Ideal.ofBits_zero_f32, ofBits_one, zero_add]
  rfl

end Cert.Adnm.Reference

end
-- ==== Proof.lean ====
/-
  Both programs compute, for `X : [256, 512]`, `W, Q : [256, 8, 512]`, `M : [256, 1, 512]`, the `256 × 256` array whose element `(B, O)` is
      ∑ s < 8,  logistic ( ∑ k < 512,  logistic (X(B,k) * W(O,s,k) - Q(O,s,k)) * tanh (M(O,0,k)) )
  on the extended reals (Proof/Spec.lean).

  The reference does so literally, with the logistic written `1 / (1 + exp (-z))` (Proof/RefIsSpec.lean). The kernel writes the
  logistic as `1/2 * tanh (1/2 * z) + 1/2`, the same function of every extended real, the infinities included, so no finiteness
  of the inputs is used (Proof/Logistic.lean); it exchanges the first two axes of `W` and `Q` beforehand, works on 16 blocks of
  32 × 128 elements, keeps the table `tanh M` of the current 128 columns from the first block of each run of eight, and adds the
  eight terms of the outer sum one after the other onto zero (Proof/Payload.lean, Trips.lean, Pieces.lean, PointValue.lean,
  Blocks.lean, Points.lean, Whole.lean). Sums of extended reals do not depend on the order or grouping of their terms, and
  `0 + x = x`; nothing else joins the two sides. The idealized kernel is the kernel's own text read on the extended reals: no
  operation was rewritten, so there is nothing to preserve.
-/
import proofs.«145500_j4801773437066_2_alg».proof.Defs
import proofs.«145500_j4801773437066_2_alg».proof.Proof.Gen.Kernel
import proofs.«145500_j4801773437066_2_alg».proof.Proof.Gen.Kernel.Skeleton
import proofs.«145500_j4801773437066_2_alg».proof.Proof.Gen.Kernel.Loops
import proofs.«145500_j4801773437066_2_alg».proof.Proof.Gen.Kernel.Launch
import proofs.«145500_j4801773437066_2_alg».proof.Proof.Gen.Kernel.Points
import proofs.«145500_j4801773437066_2_alg».proof.Proof.Gen.Kernel.Frame
import proofs.«145500_j4801773437066_2_alg».proof.Proof.Gen.KernelIdeal
import proofs.«145500_j4801773437066_2_alg».proof.Proof.Gen.KernelIdeal.Skeleton
import proofs.«145500_j4801773437066_2_alg».proof.Proof.Gen.KernelIdeal.Loops
import proofs.«145500_j4801773437066_2_alg».proof.Proof.Gen.KernelIdeal.Launch
import proofs.«145500_j4801773437066_2_alg».proof.Proof.Gen.KernelIdeal.Points
import proofs.«145500_j4801773437066_2_alg».proof.Proof.Gen.KernelIdeal.Frame
import proofs.«145500_j4801773437066_2_alg».proof.Proof.Gen.ReferenceIdeal
import proofs.«145500_j4801773437066_2_alg».proof.Proof.Gen.Pre_finite_inputs
import proofs.«145500_j4801773437066_2_alg».proof.Proof.Gen.KernelIdeal.Value
import proofs.«145500_j4801773437066_2_alg».proof.Proof.Gen.ReferenceIdeal.Run
import proofs.«145500_j4801773437066_2_alg».proof.Proof.Gen.ReferenceIdeal.Read
import proofs.«145500_j4801773437066_2_alg».proof.Proof.Whole
import proofs.«145500_j4801773437066_2_alg».proof.Proof.RefIsSpec
import Idealize.ShloMosaic.Adequacy
import Idealize.ShloMosaic.Init

noncomputable section

namespace Cert.Proof

open Idealize.ShloMosaic Idealize.ShloMosaic.TcCoe Idealize.SL.Sem

/-- Each program runs to the end without a fault and leaves its arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments both runs end with the result array at the specified function of them. -/
theorem algebraic : Cert.algebraic_KernelIdeal_ReferenceIdeal := by
  intro m ρ m' ρ' _ hagree
  refine ⟨fun c => Cert.Adnm.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.Adnm.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.Adnm.Reference.reference_is_G,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
